-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000 : Shape := ⟨1, ![2000000]⟩
abbrev S2000000x128 : Shape := ⟨2, ![2000000, 128]⟩
abbrev S2000000x3 : Shape := ⟨2, ![2000000, 3]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S2000000x128 : S_.BroadcastsInDim S2000000x128 (![] : Fin 0 → Fin S2000000x128.rank)
  reducesTo_S2000000x128_S_d0_1 : S2000000x128.ReducesTo [0, 1] S_
  h_S_ : 0 < S_.numel
  bcast_S_S2000000x3 : S_.BroadcastsInDim S2000000x3 (![] : Fin 0 → Fin S2000000x3.rank)
  reducesTo_S2000000x3_S_d0_1 : S2000000x3.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1x64 .f32) (main_arg7 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S1x64 .f32 := Host.absf main_arg6
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : IVec S2000000 32) (main_arg1 : FVec F S2000000x128 .f32) (main_arg2 : FVec F S2000000x3 .f32) (main_arg3 : IVec S2000000 32) (main_arg4 : FVec F S64x128 .f32) (main_arg5 : FVec F S64 .f32) (main_arg6 : FVec F S1x64 .f32) (main_arg7 : FVec F S1 .f32) : IVec S_ 1 :=
  let main_v0 : FVec F S2000000x128 .f32 := Host.absf main_arg1
  let main_cst : FVec F S_ .f32 := constant S_ .f32 0x7F800000#32
  let main_v1 : FVec F S2000000x128 .f32 := broadcastInDim S2000000x128 ![] bcast_S_S2000000x128 main_cst
  let main_v2 : IVec S2000000x128 1 := cmpf .olt main_v0 main_v1
  let main_c : IVec S_ 1 := constantI S_ 1 1#1
  let main_v3 : IVec S_ 1 := (fun x v => Host.reduce IntOp.andi x v reducesTo_S2000000x128_S_d0_1 h_S_) main_v2 main_c
  let main_v4 : FVec F S2000000x3 .f32 := Host.absf main_arg2
  let main_cst_0 : FVec F S_ .f32 := constant S_ .f32 0x7F800000#32
  let main_v5 : FVec F S2000000x3 .f32 := broadcastInDim S2000000x3 ![] bcast_S_S2000000x3 main_cst_0
  let main_v6 : IVec S2000000x3 1 := cmpf .olt main_v4 main_v5
  let main_c_1 : IVec S_ 1 := constantI S_ 1 1#1
  let main_v7 : IVec S_ 1 := (fun x v => Host.reduce IntOp.andi x v reducesTo_S2000000x3_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S2000000 : Shape := ⟨1, ![2000000]⟩
abbrev S2000000x128 : Shape := ⟨2, ![2000000, 128]⟩
abbrev S2000000x3 : Shape := ⟨2, ![2000000, 3]⟩
abbrev S64x128 : Shape := ⟨2, ![64, 128]⟩
abbrev S64 : Shape := ⟨1, ![64]⟩
abbrev S1x64 : Shape := ⟨2, ![1, 64]⟩
abbrev S1 : Shape := ⟨1, ![1]⟩
abbrev S2000000x1 : Shape := ⟨2, ![2000000, 1]⟩
abbrev S8000x128 : Shape := ⟨2, ![8000, 128]⟩
abbrev S8000x1 : Shape := ⟨2, ![8000, 1]⟩
abbrev S128x64 : Shape := ⟨2, ![128, 64]⟩
abbrev S8000x64 : Shape := ⟨2, ![8000, 64]⟩
abbrev S8000 : Shape := ⟨1, ![8000]⟩
abbrev S_ : Shape := ⟨0, ![]⟩
abbrev S32768 : Shape := ⟨1, ![32768]⟩
abbrev S32768x1 : Shape := ⟨2, ![32768, 1]⟩

abbrev nBuf : Space → Nat
  | .hbm => 21
  | .vmem => 8
  | .smem => 0
  | _ => 0

abbrev bufTy : (tb : Table) → Fin (tcTables nBuf tb) → BufTy
  | .hbm, ⟨0, _⟩ => ⟨S2000000, .i32⟩
  | .hbm, ⟨1, _⟩ => ⟨S2000000x128, .f32⟩
  | .hbm, ⟨2, _⟩ => ⟨S2000000x3, .f32⟩
  | .hbm, ⟨3, _⟩ => ⟨S2000000, .i32⟩
  | .hbm, ⟨4, _⟩ => ⟨S64x128, .f32⟩
  | .hbm, ⟨5, _⟩ => ⟨S64, .f32⟩
  | .hbm, ⟨6, _⟩ => ⟨S1x64, .f32⟩
  | .hbm, ⟨7, _⟩ => ⟨S1, .f32⟩
  | .hbm, ⟨8, _⟩ => ⟨S2000000x1, .f32⟩
  | .hbm, ⟨9, _⟩ => ⟨S2000000, .f32⟩
  | .hbm, ⟨10, _⟩ => ⟨S_, .i32⟩
  | .hbm, ⟨11, _⟩ => ⟨S2000000, .i32⟩
  | .hbm, ⟨12, _⟩ => ⟨S2000000, .i1⟩
  | .hbm, ⟨13, _⟩ => ⟨S_, .f32⟩
  | .hbm, ⟨14, _⟩ => ⟨S2000000, .f32⟩
  | .hbm, ⟨15, _⟩ => ⟨S2000000, .f32⟩
  | .hbm, ⟨16, _⟩ => ⟨S_, .f32⟩
  | .hbm, ⟨17, _⟩ => ⟨S32768, .f32⟩
  | .hbm, ⟨18, _⟩ => ⟨S2000000x1, .i32⟩
  | .hbm, ⟨19, _⟩ => ⟨S32768, .f32⟩
  | .hbm, ⟨20, _⟩ => ⟨S32768x1, .f32⟩
  | .local _ .vmem, ⟨0, _⟩ => ⟨S8000x128, .f32⟩
  | .local _ .vmem, ⟨1, _⟩ => ⟨S8000x128, .f32⟩
  | .local _ .vmem, ⟨2, _⟩ => ⟨S64x128, .f32⟩
  | .local _ .vmem, ⟨3, _⟩ => ⟨S64, .f32⟩
  | .local _ .vmem, ⟨4, _⟩ => ⟨S1x64, .f32⟩
  | .local _ .vmem, ⟨5, _⟩ => ⟨S1, .f32⟩
  | .local _ .vmem, ⟨6, _⟩ => ⟨S8000x1, .f32⟩
  | .local _ .vmem, ⟨7, _⟩ => ⟨S8000x1, .f32⟩
  | _, _ => ⟨S2000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_call0_v0 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  inb_S1x64_S1x64_0_0 : ∀ a, (![0, 0] : Fin 2 → Nat) a + S1x64.size a ≤ S1x64.size a
  h_S1x64 : 0 < S1x64.numel
  shapeCasts_S1x64_S64 : S1x64.ShapeCasts S64
  reduces_S8000x64_S8000 : S8000x64.Reduces [1] S8000
  shapeCasts_S8000_S8000x1 : S8000.ShapeCasts S8000x1
  inb_S1_S1_0 : ∀ a, (![0] : Fin 1 → Nat) a + S1.size a ≤ S1.size a
  h_S1 : 0 < S1.numel
  inpos_S1_p0 : ∀ a, (![0] : Fin 1 → Nat) a < S1.size a
  inb_S8000x1_S8000x1_0_0 : ∀ a, (![0, 0] : Fin 2 → Nat) a + S8000x1.size a ≤ S8000x1.size a
  h_S8000x1 : 0 < S8000x1.numel
  shapeCasts_S2000000x1_S2000000 : S2000000x1.ShapeCasts S2000000
  bcast_S_S2000000 : S_.BroadcastsInDim S2000000 (![] : Fin 0 → Fin S2000000.rank)
  bcast_S_S32768 : S_.BroadcastsInDim S32768 (![] : Fin 0 → Fin S32768.rank)
  bcast_S2000000_S2000000x1_0 : S2000000.BroadcastsInDim S2000000x1 (![0] : Fin 1 → Fin S2000000x1.rank)
  shapeCasts_S32768_S32768x1 : S32768.ShapeCasts S32768x1
  dot_S8000x128_S128x64_S8000x64_1_0_0_1_n_n_wf : DotDims.WF S8000x128 S128x64 S8000x64 [1] [0] [0] [1] [] []
  scatter_S32768_S2000000x1_S2000000_n_0_0_1_wf : ScatterDims.WF S32768 S2000000x1 S2000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S2000000x128.size a
  hwx0_0 : ∀ i : grid0.Coords, EltTy.bits .f32 = 32 ∨ (Rect.block (s := S2000000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x1.size a ≤ S2000000x1.size a
  hwx0_5 : ∀ i : grid0.Coords, EltTy.bits .f32 = 32 ∨ (Rect.block (s := S2000000x1) S8000x1.size (cc0_transform_5 i) (hinb0_5 i)).WholeWords (EltTy.packing .f32)

variable [Facts₀]

def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def scatter_S32768_S2000000x1_S2000000_n_0_0_1 : ScatterDims S32768 S2000000x1 S2000000 where
  updateWindowDims := []
  insertedWindowDims := [0]
  scatterDimsToOperandDims := [0]
  indexVectorDim := 1
  wf := scatter_S32768_S2000000x1_S2000000_n_0_0_1_wf

abbrev win0_0 : Pipeline.Window sig grid0 :=
  Pipeline.Window.ofSpec (Memref.whole main_arg1) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S8000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2000000 : Shape := ⟨1, ![2000000]⟩
abbrev S2000000x128 : Shape := ⟨2, ![2000000, 128]⟩
abbrev S2000000x3 : Shape := ⟨2, ![2000000, 3]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩
abbrev S2000000x1 : Shape := ⟨2, ![2000000, 1]⟩
abbrev S128x64 : Shape := ⟨2, ![128, 64]⟩
abbrev S2000000x64 : Shape := ⟨2, ![2000000, 64]⟩
abbrev S64x1 : Shape := ⟨2, ![64, 1]⟩
abbrev S1x1 : Shape := ⟨2, ![1, 1]⟩
abbrev S32768x1 : Shape := ⟨2, ![32768, 1]⟩

abbrev nBuf : Space → Nat
  | .hbm => 44
  | .vmem => 0
  | .smem => 0
  | _ => 0

abbrev bufTy : (tb : Table) → Fin (tcTables nBuf tb) → BufTy
  | .hbm, ⟨0, _⟩ => ⟨S2000000, .i32⟩
  | .hbm, ⟨1, _⟩ => ⟨S2000000x128, .f32⟩
  | .hbm, ⟨2, _⟩ => ⟨S2000000x3, .f32⟩
  | .hbm, ⟨3, _⟩ => ⟨S2000000, .i32⟩
  | .hbm, ⟨4, _⟩ => ⟨S64x128, .f32⟩
  | .hbm, ⟨5, _⟩ => ⟨S64, .f32⟩
  | .hbm, ⟨6, _⟩ => ⟨S1x64, .f32⟩
  | .hbm, ⟨7, _⟩ => ⟨S1, .f32⟩
  | .hbm, ⟨8, _⟩ => ⟨S_, .i32⟩
  | .hbm, ⟨9, _⟩ => ⟨S2000000, .i32⟩
  | .hbm, ⟨10, _⟩ => ⟨S2000000, .i1⟩
  | .hbm, ⟨11, _⟩ => ⟨S2000000x1, .i1⟩
  | .hbm, ⟨12, _⟩ => ⟨S128x64, .f32⟩
  | .hbm, ⟨13, _⟩ => ⟨S2000000x64, .f32⟩
  | .hbm, ⟨14, _⟩ => ⟨S1x64, .f32⟩
  | .hbm, ⟨15, _⟩ => ⟨S2000000x64, .f32⟩
  | .hbm, ⟨16, _⟩ => ⟨S2000000x64, .f32⟩
  | .hbm, ⟨17, _⟩ => ⟨S2000000x64, .f32⟩
  | .hbm, ⟨18, _⟩ => ⟨S2000000x64, .f32⟩
  | .hbm, ⟨19, _⟩ => ⟨S_, .f32⟩
  | .hbm, ⟨20, _⟩ => ⟨S2000000x64, .f32⟩
  | .hbm, ⟨21, _⟩ => ⟨S2000000x64, .f32⟩
  | .hbm, ⟨22, _⟩ => ⟨S_, .f32⟩
  | .hbm, ⟨23, _⟩ => ⟨S2000000x64, .f32⟩
  | .hbm, ⟨24, _⟩ => ⟨S2000000x64, .f32⟩
  | .hbm, ⟨25, _⟩ => ⟨S2000000x64, .f32⟩
  | .hbm, ⟨26, _⟩ => ⟨S64x1, .f32⟩
  | .hbm, ⟨27, _⟩ => ⟨S2000000x1, .f32⟩
  | .hbm, ⟨28, _⟩ => ⟨S1x1, .f32⟩
  | .hbm, ⟨29, _⟩ => ⟨S2000000x1, .f32⟩
  | .hbm, ⟨30, _⟩ => ⟨S2000000x1, .f32⟩
  | .hbm, ⟨31, _⟩ => ⟨S_, .f32⟩
  | .hbm, ⟨32, _⟩ => ⟨S2000000x1, .f32⟩
  | .hbm, ⟨33, _⟩ => ⟨S2000000x1, .f32⟩
  | .hbm, ⟨34, _⟩ => ⟨S_, .f32⟩
  | .hbm, ⟨35, _⟩ => ⟨S2000000x1, .f32⟩
  | .hbm, ⟨36, _⟩ => ⟨S2000000x1, .f32⟩
  | .hbm, ⟨37, _⟩ => ⟨S_, .f32⟩
  | .hbm, ⟨38, _⟩ => ⟨S2000000x1, .f32⟩
  | .hbm, ⟨39, _⟩ => ⟨S2000000x1, .f32⟩
  | .hbm, ⟨40, _⟩ => ⟨S_, .f32⟩
  | .hbm, ⟨41, _⟩ => ⟨S32768x1, .f32⟩
  | .hbm, ⟨42, _⟩ => ⟨S2000000x1, .i32⟩
  | .hbm, ⟨43, _⟩ => ⟨S32768x1, .f32⟩
  | _, _ => ⟨S2000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_cst_0 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_call1_v0 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  transposes_S64x128_S128x64_1_0 : S64x128.Transposes [1, 0] S128x64
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  bcast_S_S2000000x64 : S_.BroadcastsInDim S2000000x64 (![] : Fin 0 → Fin S2000000x64.rank)
  transposes_S1x64_S64x1_1_0 : S1x64.Transposes [1, 0] S64x1
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  bcast_S_S2000000x1 : S_.BroadcastsInDim S2000000x1 (![] : Fin 0 → Fin S2000000x1.rank)
  bcast_S_S32768x1 : S_.BroadcastsInDim S32768x1 (![] : Fin 0 → Fin S32768x1.rank)
  dot_S2000000x128_S128x64_S2000000x64_1_0_0_1_n_n_wf : DotDims.WF S2000000x128 S128x64 S2000000x64 [1] [0] [0] [1] [] []
  dot_S2000000x64_S64x1_S2000000x1_1_0_0_1_n_n_wf : DotDims.WF S2000000x64 S64x1 S2000000x1 [1] [0] [0] [1] [] []
  scatter_S32768x1_S2000000x1_S2000000x1_1_0_0_1_wf : ScatterDims.WF S32768x1 S2000000x1 S2000000x1 [1] [0] [0] 1

variable [Facts₀]

def dot_S2000000x128_S128x64_S2000000x64_1_0_0_1_n_n : DotDims S2000000x128 S128x64 S2000000x64 where
  lhsContracting := [1]
  rhsContracting := [0]
  lhsNonContracting := [0]
  rhsNonContracting := [1]
  lhsBatch := []
  rhsBatch := []
  wf := dot_S2000000x128_S128x64_S2000000x64_1_0_0_1_n_n_wf
def dot_S2000000x64_S64x1_S2000000x1_1_0_0_1_n_n : DotDims S2000000x64 S64x1 S2000000x1 where
  lhsContracting := [1]
  rhsContracting := [0]
  lhsNonContracting := [0]
  rhsNonContracting := [1]
  lhsBatch := []
  rhsBatch := []
  wf := dot_S2000000x64_S64x1_S2000000x1_1_0_0_1_n_n_wf
def scatter_S32768x1_S2000000x1_S2000000x1_1_0_0_1 : ScatterDims S32768x1 S2000000x1 S2000000x1 where
  updateWindowDims := [1]
  insertedWindowDims := [0]
  scatterDimsToOperandDims := [0]
  indexVectorDim := 1
  wf := scatter_S32768x1_S2000000x1_S2000000x1_1_0_0_1_wf

class Facts : Prop extends Facts₀ where

variable [Facts]
-- ==== Proof.Spec.lean ====
/-
  The read-out this certificate is about, as one function of the argument arrays.

  Every atom `n` has a feature row `h[n, ·]` of 128 numbers. A two-layer perceptron turns the row into one
  number: hidden unit `j` (of 64) has pre-activation `a_j = Σ_k h[n, k] · W1[j, k] + b1[j]`, is activated by
  `a ↦ a · σ(a)` with `σ` the logistic function, and the 64 activations are combined as
  `Σ_j a_j σ(a_j) · W2[0, j] + b2[0]`. The result is rescaled by the two float constants the programs share
  (the words `0x4059999A` and `0xBF99999A`, kept as words: the same word on both sides is never evaluated).
  An atom whose integer label `z[n]` is not positive contributes the float zero instead. Finally the atoms'
  numbers are summed per graph: graph `g` (of 32768) receives, on top of the float zero, the numbers of the atoms
  `n` whose graph index `batch[n]`, read as a signed integer, is `g`; an index outside `[0, 32768)` lands nowhere.

  All sums are over the extended reals, where addition is commutative and associative: no order or grouping of
  a sum is recorded here, and none is needed to compare the two programs.
-/
import Idealize.ShloMosaic.PureOps.Ideal
import Idealize.ShloMosaic.Lib.ValueIdx

noncomputable section

namespace Cert.AtomReadout

open Idealize.ShloMosaic Idealize.ShloMosaic.ValueIdx

/-- Hidden unit `j`'s pre-activation for one feature row: `Σ_k row k · W1[j, k] + b1[j]`. -/
def preact (row : Fin 128 → EReal) (W1 : FVec Ideal ⟨2, ![64, 128]⟩ .f32) (b1 : FVec Ideal ⟨1, ![64]⟩ .f32) (j : Fin 64) : EReal :=
  (∑ k : Fin 128, row k * W1 (ix2 j k)) + b1 (ix1 j)

/-- The activation `a ↦ a · σ(a)`, `σ` the logistic function `1 / (1 + e^(-a))`. -/
def silu (a : EReal) : EReal := a * Ideal.logistic a

/-- One feature row's energy: the 64 activated units combined by `W2`, shifted by `b2`, then rescaled by the
    programs' two shared float constants. -/
def rowEnergy (row : Fin 128 → EReal) (W1 : FVec Ideal ⟨2, ![64, 128]⟩ .f32) (b1 : FVec Ideal ⟨1, ![64]⟩ .f32)
    (W2 : FVec Ideal ⟨2, ![1, 64]⟩ .f32) (b2 : FVec Ideal ⟨1, ![1]⟩ .f32) : EReal :=
  ((∑ j : Fin 64, silu (preact row W1 b1 j) * W2 (ix2 (0 : Fin 1) j)) + b2 (ix1 (0 : Fin 1))) * Ideal.ofBits .f32 0x4059999A#32
    + Ideal.ofBits .f32 0xBF99999A#32

/-- Atom `n`'s energy: the energy of its feature row. -/
def atomEnergy (h : FVec Ideal ⟨2, ![2000000, 128]⟩ .f32) (W1 : FVec Ideal ⟨2, ![64, 128]⟩ .f32) (b1 : FVec Ideal ⟨1, ![64]⟩ .f32)
    (W2 : FVec Ideal ⟨2, ![1, 64]⟩ .f32) (b2 : FVec Ideal ⟨1, ![1]⟩ .f32) (n : Fin 2000000) : EReal :=
  rowEnergy (fun k => h (ix2 n k)) W1 b1 W2 b2

/-- What atom `n` contributes: its energy when its label is positive (a signed comparison with zero), the float
    zero otherwise. -/
def kept (z : IVec ⟨1, ![2000000]⟩ 32) (h : FVec Ideal ⟨2, ![2000000, 128]⟩ .f32) (W1 : FVec Ideal ⟨2, ![64, 128]⟩ .f32)
    (b1 : FVec Ideal ⟨1, ![64]⟩ .f32) (W2 : FVec Ideal ⟨2, ![1, 64]⟩ .f32) (b2 : FVec Ideal ⟨1, ![1]⟩ .f32) (n : Fin 2000000) : EReal :=
  Scalar.select (IntOp.cmpi .sgt (z (ix1 n)) 0#32) (atomEnergy h W1 b1 W2 b2 n) (Ideal.ofBits .f32 0x00000000#32)

/-- THE READ-OUT: entry `(g, 0)` is the float zero plus the contributions of the atoms whose graph index is `g`. -/
def readout (z : IVec ⟨1, ![2000000]⟩ 32) (h : FVec Ideal ⟨2, ![2000000, 128]⟩ .f32) (batch : IVec ⟨1, ![2000000]⟩ 32)
    (W1 : FVec Ideal ⟨2, ![64, 128]⟩ .f32) (b1 : FVec Ideal ⟨1, ![64]⟩ .f32) (W2 : FVec Ideal ⟨2, ![1, 64]⟩ .f32)
    (b2 : FVec Ideal ⟨1, ![1]⟩ .f32) : FVec Ideal ⟨2, ![32768, 1]⟩ .f32 := fun i =>
  Ideal.ofBits .f32 0x00000000#32
    + ∑ n : Fin 2000000, if (batch (ix1 n)).toInt = ((i 0).val : ℤ) then kept z h W1 b1 W2 b2 n else 0

end Cert.AtomReadout

end
-- ==== Proof.LibRowIndexing.lean ====
/-
  Row gather and accumulating row scatter read at an index, for the dimension numbers that `x[idx]` and
  `segment_sum` lower to.

  A table `x : [N, F]` (or a flat array `[N]`) is indexed by an integer column `idx : [E, 1]`.
  * GATHER: result row `e` is the table's row at `idx[e, 0]`, the index read as a signed integer and clamped
    into `[0, N − 1]` (every start index of a gather is clamped so that its slice fits).
  * SCATTER with an `add` body, at the ideal instance: element `(r, f)` of the result is the operand's element plus
    the sum of the updates `upd[e, f]` over the edges `e` whose index `idx[e, 0]`, read signed and NOT clamped, is `r`;
    an index outside `[0, N)` lands nowhere and contributes nothing.
  Shapes are parameters, so each statement serves every literal shape of a program; a program's own record of
  dimension numbers is one of the records below by `rfl`.
-/
import Idealize.ShloMosaic.PureOps.Ideal
import Idealize.ShloMosaic.Lib.ValueIdx

noncomputable section

namespace Cert.Gcn

open Idealize.ShloMosaic Idealize.ShloMosaic.ValueIdx

/-! ## Gather -/

section Gather
variable {α : Type}

/-- The dimension numbers of `x[idx]` for a table `[N, F]` and an index column `[E, 1]`: the row axis collapsed
    and indexed, the feature axis kept whole. -/
abbrev rowGatherDims (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The row a gather reads for edge `e`: the index read signed, clamped into `[0, N − 1]`. -/
def clampRow {N w : Nat} (hN : 0 < N) (v : BitVec w) : Fin N := ⟨min v.toInt.toNat (N - 1), by omega⟩

/-- THE ROW GATHER AT `(e, f)`: the table at the clamped row, same feature. -/
theorem rowGather_apply {N E F w : Nat} (hN : 0 < N)
    (wf : GatherDims.WF ⟨2, ![N, F]⟩ ⟨2, ![E, 1]⟩ ⟨2, ![E, F]⟩ [1] [0] [] [0] [] 1 ![1, F])
    (x : (⟨2, ![N, F]⟩ : Shape).Idx → α) (idx : IVec ⟨2, ![E, 1]⟩ w) (e : Fin E) (f : Fin F) :
    Host.gather (rowGatherDims N E F wf) x idx (ix2 e f) = x (ix2 (clampRow hN (idx (ix2 e (0 : Fin 1)))) f) := by
  unfold Host.gather
  congr 1
  funext a
  refine Fin.ext ?_
  have hsi : (rowGatherDims N E F wf).siIdx (ix2 e f) ⟨List.idxOf (0 : Fin 2) (rowGatherDims N E F wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  match a with
  | ⟨0, _⟩ =>
    show (rowGatherDims N E F wf).start (ix2 e f) idx (0 : Fin 2) + (rowGatherDims N E F wf).batchCoord (ix2 e f) (0 : Fin 2)
        + (rowGatherDims N E F wf).offCoord (ix2 e f) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E F wf).startIndexMap from List.mem_singleton.mpr rfl)]
    rw [hsi]
    rfl
  | ⟨1, _⟩ =>
    show (rowGatherDims N E F wf).start (ix2 e f) idx (1 : Fin 2) + (rowGatherDims N E F wf).batchCoord (ix2 e f) (1 : Fin 2)
        + (rowGatherDims N E F wf).offCoord (ix2 e f) (1 : Fin 2) = _
    rw [GatherDims.batchCoord_eq_zero _ _ _ List.not_mem_nil]
    unfold GatherDims.start
    rw [dif_neg (show (1 : Fin 2) ∉ [(0 : Fin 2)] from by decide)]
    simp only [Nat.zero_add]
    unfold GatherDims.offCoord
    rw [dif_pos (show (1 : Fin 2) ∈ (rowGatherDims N E F wf).sKept from by
      rw [GatherDims.mem_sKept]; exact ⟨(show (1 : Fin 2) ∉ [(0 : Fin 2)] from by decide), List.not_mem_nil⟩)]
    rfl

/-- The dimension numbers of `x[idx]` for a flat array `[N]` and an index column `[E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER AT `e`: the array at the clamped index. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Accumulating scatter -/

section Scatter

/-- The dimension numbers of `segment_sum` into a table `[N, F]` from updates `[E, F]` by an index column `[E, 1]`:
    the row axis indexed, the feature axis a window kept whole. -/
abbrev rowScatterDims (N E F : Nat)
    (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

variable {N E F w : Nat} (wf : ScatterDims.WF ⟨2, ![N, F]⟩ ⟨2, ![E, 1]⟩ ⟨2, ![E, F]⟩ [1] [0] [0] 1)
  (idx : IVec ⟨2, ![E, 1]⟩ w) (e : Fin E) (f : Fin F)

/-- On the row axis an update starts at its edge's index, read signed. -/
theorem rowScatter_start0 : (rowScatterDims N E F wf).start (ix2 e f) idx (0 : Fin 2) = (idx (ix2 e (0 : Fin 1))).toInt := by
  unfold ScatterDims.start
  rw [dif_pos (show (0 : Fin 2) ∈ (rowScatterDims N E F wf).scatterDimsToOperandDims from List.mem_singleton.mpr rfl)]
  have hsi : (rowScatterDims N E F wf).siIdx (ix2 e f) ⟨List.idxOf (0 : Fin 2) (rowScatterDims N E F wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the feature axis it starts at zero. -/
theorem rowScatter_start1 : (rowScatterDims N E F wf).start (ix2 e f) idx (1 : Fin 2) = 0 := by
  unfold ScatterDims.start
  rw [dif_neg (show (1 : Fin 2) ∉ [(0 : Fin 2)] from by decide)]

/-- The row axis is no window axis. -/
theorem rowScatter_window0 : (rowScatterDims N E F wf).window (ix2 e f) (0 : Fin 2) = 0 := by
  unfold ScatterDims.window
  rw [dif_neg (show (0 : Fin 2) ∉ (rowScatterDims N E F wf).sKept from
    (by decide : (0 : Fin 2) ∉ (List.finRange 2).filter (fun a => a ∉ [(0 : Fin 2)])))]

/-- The feature axis is the window: the update's own feature. -/
theorem rowScatter_window1 : (rowScatterDims N E F wf).window (ix2 e f) (1 : Fin 2) = f.val := by
  unfold ScatterDims.window
  rw [dif_pos (show (1 : Fin 2) ∈ (rowScatterDims N E F wf).sKept from
    (by decide : (1 : Fin 2) ∈ (List.finRange 2).filter (fun a => a ∉ [(0 : Fin 2)])))]
  rfl

/-- WHERE AN UPDATE LANDS: update `(e, f)` lands on `(r, g)` exactly when the edge's index, read signed, is `r`
    and `f = g`; an index outside `[0, N)` lands nowhere. -/
theorem rowScatter_lands (r : Fin N) (g : Fin F) :
    (rowScatterDims N E F wf).resultIdx? (ix2 e f) idx = some (ix2 r g)
      ↔ (idx (ix2 e (0 : Fin 1))).toInt = (r.val : ℤ) ∧ f = g := by
  have h0 := r.isLt
  have h1 := g.isLt
  have hf := f.isLt
  unfold ScatterDims.resultIdx?
  split
  · rename_i h
    rw [Option.some.injEq]
    constructor
    · intro hi
      have e0 : ((rowScatterDims N E F wf).start (ix2 e f) idx (0 : Fin 2)
          + ((rowScatterDims N E F wf).window (ix2 e f) (0 : Fin 2) : ℤ)).toNat = r.val :=
        congrArg (fun j : (⟨2, ![N, F]⟩ : Shape).Idx => (j 0).val) hi
      have e1 : ((rowScatterDims N E F wf).start (ix2 e f) idx (1 : Fin 2)
          + ((rowScatterDims N E F wf).window (ix2 e f) (1 : Fin 2) : ℤ)).toNat = g.val :=
        congrArg (fun j : (⟨2, ![N, F]⟩ : Shape).Idx => (j 1).val) hi
      have k0 := (h (0 : Fin 2)).1
      rw [rowScatter_start0, rowScatter_window0] at e0 k0
      rw [rowScatter_start1, rowScatter_window1] at e1
      exact ⟨by omega, Fin.ext (by omega)⟩
    · rintro ⟨g0, g1⟩
      funext a
      refine Fin.ext ?_
      match a with
      | ⟨0, _⟩ =>
        show ((rowScatterDims N E F wf).start (ix2 e f) idx (0 : Fin 2) + ((rowScatterDims N E F wf).window (ix2 e f) (0 : Fin 2) : ℤ)).toNat = r.val
        rw [rowScatter_start0, rowScatter_window0]; omega
      | ⟨1, _⟩ =>
        show ((rowScatterDims N E F wf).start (ix2 e f) idx (1 : Fin 2) + ((rowScatterDims N E F wf).window (ix2 e f) (1 : Fin 2) : ℤ)).toNat = g.val
        rw [rowScatter_start1, rowScatter_window1, g1]; omega
  · rename_i h
    constructor
    · intro hi; exact absurd hi (by simp)
    · rintro ⟨g0, g1⟩
      exfalso; apply h
      intro a
      match a with
      | ⟨0, _⟩ =>
        show 0 ≤ (rowScatterDims N E F wf).start (ix2 e f) idx (0 : Fin 2) + ((rowScatterDims N E F wf).window (ix2 e f) (0 : Fin 2) : ℤ)
          ∧ (rowScatterDims N E F wf).start (ix2 e f) idx (0 : Fin 2) + ((rowScatterDims N E F wf).window (ix2 e f) (0 : Fin 2) : ℤ) < (N : ℤ)
        rw [rowScatter_start0, rowScatter_window0]; omega
      | ⟨1, _⟩ =>
        show 0 ≤ (rowScatterDims N E F wf).start (ix2 e f) idx (1 : Fin 2) + ((rowScatterDims N E F wf).window (ix2 e f) (1 : Fin 2) : ℤ)
          ∧ (rowScatterDims N E F wf).start (ix2 e f) idx (1 : Fin 2) + ((rowScatterDims N E F wf).window (ix2 e f) (1 : Fin 2) : ℤ) < (F : ℤ)
        rw [rowScatter_start1, rowScatter_window1]; omega

/-- THE ACCUMULATING ROW SCATTER AT `(r, g)`: the operand's element plus the updates `upd[e, g]` of the edges whose
    index is `r`. -/
theorem rowScatterAdd_apply (x : (⟨2, ![N, F]⟩ : Shape).Idx → EReal) (upd : (⟨2, ![E, F]⟩ : Shape).Idx → EReal)
    (r : Fin N) (g : Fin F) :
    Ideal.hostScatterAdd (rowScatterDims N E F wf) x idx upd (ix2 r g)
      = x (ix2 r g) + ∑ e : Fin E, if (idx (ix2 e (0 : Fin 1))).toInt = (r.val : ℤ) then upd (ix2 e g) else 0 := by
  unfold Ideal.hostScatterAdd
  congr 1
  rw [Finset.sum_filter, sum_idx2]
  refine Finset.sum_congr rfl fun e _ => ?_
  simp only [rowScatter_lands]
  by_cases hP : (idx (ix2 e (0 : Fin 1))).toInt = (r.val : ℤ)
  · simp only [hP, true_and, if_true]
    rw [Finset.sum_ite_eq' Finset.univ g (fun f => upd (ix2 e f))]
    exact if_pos (Finset.mem_univ _)
  · simp only [hP, false_and, if_false]
    exact Finset.sum_const_zero

end Scatter

/-! ## Accumulating scatter into a flat array -/

section VecScatter

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of `segment_sum` into a flat array `[N]` from updates `[E]` by an index column `[E, 1]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- An update starts at its edge's index, read signed. -/
theorem vecScatter_start0 : (vecScatterDims N E wf).start (ix1 e) idx (0 : Fin 1) = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- There is no window axis. -/
theorem vecScatter_window0 : (vecScatterDims N E wf).window (ix1 e) (0 : Fin 1) = 0 := by
  unfold ScatterDims.window
  rw [dif_neg (show (0 : Fin 1) ∉ (vecScatterDims N E wf).sKept from
    (by decide : (0 : Fin 1) ∉ (List.finRange 1).filter (fun a => a ∉ [(0 : Fin 1)])))]

/-- WHERE AN UPDATE LANDS: update `e` lands on `r` exactly when the edge's index, read signed, is `r`. -/
theorem vecScatter_lands (r : Fin N) :
    (vecScatterDims N E wf).resultIdx? (ix1 e) idx = some (ix1 r) ↔ (idx (ix2 e (0 : Fin 1))).toInt = (r.val : ℤ) := by
  have h0 := r.isLt
  unfold ScatterDims.resultIdx?
  split
  · rename_i h
    rw [Option.some.injEq]
    constructor
    · intro hi
      have e0 : ((vecScatterDims N E wf).start (ix1 e) idx (0 : Fin 1)
          + ((vecScatterDims N E wf).window (ix1 e) (0 : Fin 1) : ℤ)).toNat = r.val :=
        congrArg (fun j : (⟨1, ![N]⟩ : Shape).Idx => (j 0).val) hi
      have k0 := (h (0 : Fin 1)).1
      rw [vecScatter_start0, vecScatter_window0] at e0 k0
      omega
    · intro g0
      funext a
      refine Fin.ext ?_
      match a with
      | ⟨0, _⟩ =>
        show ((vecScatterDims N E wf).start (ix1 e) idx (0 : Fin 1) + ((vecScatterDims N E wf).window (ix1 e) (0 : Fin 1) : ℤ)).toNat = r.val
        rw [vecScatter_start0, vecScatter_window0]; omega
  · rename_i h
    constructor
    · intro hi; exact absurd hi (by simp)
    · intro g0
      exfalso; apply h
      intro a
      match a with
      | ⟨0, _⟩ =>
        show 0 ≤ (vecScatterDims N E wf).start (ix1 e) idx (0 : Fin 1) + ((vecScatterDims N E wf).window (ix1 e) (0 : Fin 1) : ℤ)
          ∧ (vecScatterDims N E wf).start (ix1 e) idx (0 : Fin 1) + ((vecScatterDims N E wf).window (ix1 e) (0 : Fin 1) : ℤ) < (N : ℤ)
        rw [vecScatter_start0, vecScatter_window0]; omega

/-- THE ACCUMULATING FLAT SCATTER AT `r`: the operand's element plus the updates of the edges whose index is `r`. -/
theorem vecScatterAdd_apply (x : (⟨1, ![N]⟩ : Shape).Idx → EReal) (upd : (⟨1, ![E]⟩ : Shape).Idx → EReal) (r : Fin N) :
    Ideal.hostScatterAdd (vecScatterDims N E wf) x idx upd (ix1 r)
      = x (ix1 r) + ∑ e : Fin E, if (idx (ix2 e (0 : Fin 1))).toInt = (r.val : ℤ) then upd (ix1 e) else 0 := by
  unfold Ideal.hostScatterAdd
  congr 1
  rw [Finset.sum_filter, sum_idx1]
  refine Finset.sum_congr rfl fun e _ => ?_
  simp only [vecScatter_lands]

end VecScatter

/-! ## The same four reads, stated for the host operations at a program's own record of dimension numbers

A program names its dimension numbers by a definition; `hd` identifies that record with the one above (by `rfl`), and the
statement is then about the host operation as the program prints it, so that it rewrites without unfolding anything. -/

section Host

theorem rowGather_host {α : Type} {N E F w : Nat} (hN : 0 < N)
    (d : GatherDims ⟨2, ![N, F]⟩ ⟨2, ![E, 1]⟩ ⟨2, ![E, F]⟩)
    (wf : GatherDims.WF ⟨2, ![N, F]⟩ ⟨2, ![E, 1]⟩ ⟨2, ![E, F]⟩ [1] [0] [] [0] [] 1 ![1, F]) (hd : d = rowGatherDims N E F wf)
    (x : (⟨2, ![N, F]⟩ : Shape).Idx → α) (idx : IVec ⟨2, ![E, 1]⟩ w) (e : Fin E) (f : Fin F) :
    Host.gather d x idx (ix2 e f) = x (ix2 (clampRow hN (idx (ix2 e (0 : Fin 1)))) f) := by
  subst hd; exact rowGather_apply hN wf x idx e f

theorem vecGather_host {α : Type} {N E w : Nat} (hN : 0 < N)
    (d : GatherDims ⟨1, ![N]⟩ ⟨2, ![E, 1]⟩ ⟨1, ![E]⟩)
    (wf : GatherDims.WF ⟨1, ![N]⟩ ⟨2, ![E, 1]⟩ ⟨1, ![E]⟩ [] [0] [] [0] [] 1 ![1]) (hd : d = vecGatherDims N E wf)
    (x : (⟨1, ![N]⟩ : Shape).Idx → α) (idx : IVec ⟨2, ![E, 1]⟩ w) (e : Fin E) :
    Host.gather d x idx (ix1 e) = x (ix1 (clampRow hN (idx (ix2 e (0 : Fin 1))))) := by
  subst hd; exact vecGather_apply hN wf x idx e

theorem rowScatterAdd_host {N E F w : Nat} {φ : FTy}
    (d : ScatterDims ⟨2, ![N, F]⟩ ⟨2, ![E, 1]⟩ ⟨2, ![E, F]⟩)
    (wf : ScatterDims.WF ⟨2, ![N, F]⟩ ⟨2, ![E, 1]⟩ ⟨2, ![E, F]⟩ [1] [0] [0] 1) (hd : d = rowScatterDims N E F wf)
    (x : FVec Ideal ⟨2, ![N, F]⟩ φ) (idx : IVec ⟨2, ![E, 1]⟩ w) (upd : FVec Ideal ⟨2, ![E, F]⟩ φ) (r : Fin N) (g : Fin F) :
    Host.scatterAdd d x idx upd (ix2 r g)
      = x (ix2 r g) + ∑ e : Fin E, if (idx (ix2 e (0 : Fin 1))).toInt = (r.val : ℤ) then upd (ix2 e g) else 0 := by
  subst hd
  unfold Host.scatterAdd
  rw [Ideal.hostScatterAdd_def]
  exact rowScatterAdd_apply wf idx x upd r g

theorem vecScatterAdd_host {N E w : Nat} {φ : FTy}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hd : d = vecScatterDims N E wf)
    (x : FVec Ideal ⟨1, ![N]⟩ φ) (idx : IVec ⟨2, ![E, 1]⟩ w) (upd : FVec Ideal ⟨1, ![E]⟩ φ) (r : Fin N) :
    Host.scatterAdd d x idx upd (ix1 r)
      = x (ix1 r) + ∑ e : Fin E, if (idx (ix2 e (0 : Fin 1))).toInt = (r.val : ℤ) then upd (ix1 e) else 0 := by
  subst hd
  unfold Host.scatterAdd
  rw [Ideal.hostScatterAdd_def]
  exact vecScatterAdd_apply wf idx x upd r

end Host

end Cert.Gcn

end
-- ==== Proof.ReferenceReadout.lean ====
/-
  The reference program computes the read-out of the specification.

  The reference's run is a composition of host operations, each read at an index by a generated lemma. Reading them
  from the result inwards, at graph `g`: the accumulating scatter is the float zero plus the sum, over the atoms whose
  graph index is `g`, of the selected per-atom value; the selection keeps the atom's energy where its label is positive;
  the energy is the rescaled second-layer product `Σ_j act[n, j] · W2ᵀ[j, 0] + b2[0]`; the activation is
  `a · (1 / (1 + e^(-a)))`, which is `a · σ(a)` once the word `0x3F800000` is read as the number one; and the
  pre-activation is the first-layer product `Σ_k h[n, k] · W1ᵀ[k, j] + b1[j]`. The transposes and broadcasts only
  rename indices: each index equation below is decided coordinate by coordinate.
-/
import proofs.«106383_j29317446763346_1_alg».proof.Proof.Gen.ReferenceIdeal.Read
import proofs.«106383_j29317446763346_1_alg».proof.Proof.Spec
import proofs.«106383_j29317446763346_1_alg».proof.Proof.LibRowIndexing
import Idealize.ShloMosaic.Lib.IdealHost

noncomputable section

namespace Cert.AtomReadout.Reference

open Idealize.ShloMosaic Idealize.ShloMosaic.ValueIdx
open Cert.ReferenceIdeal Cert.ReferenceIdeal.Read

variable (x0 : (⟨S2000000, .i32⟩ : BufTy).Contents (Elt Ideal)) (x1 : (⟨S2000000x128, .f32⟩ : BufTy).Contents (Elt Ideal))
  (x3 : (⟨S2000000, .i32⟩ : BufTy).Contents (Elt Ideal)) (x4 : (⟨S64x128, .f32⟩ : BufTy).Contents (Elt Ideal))
  (x5 : (⟨S64, .f32⟩ : BufTy).Contents (Elt Ideal)) (x6 : (⟨S1x64, .f32⟩ : BufTy).Contents (Elt Ideal))
  (x7 : (⟨S1, .f32⟩ : BufTy).Contents (Elt Ideal))

/-- The first layer at `(n, j)`: the product with the transposed weights, plus the bias repeated for every atom. -/
theorem preact_at (n : Fin 2000000) (j : Fin 64) :
    val_main_v7 (F := Ideal) x1 x4 x5 (ix2 n j) = preact (fun k => x1 (ix2 n k)) x4 x5 j := by
  rw [val_main_v7_apply, val_main_v4_apply, val_main_v6_apply, val_main_v5_apply]
  simp only [val_main_v3_apply]
  have e1 : ∀ k : Fin 128, lidx_main_v4 (ix2 n j) k = ix2 n k := fun k =>
    funext fun a => Fin.ext (by match a with | ⟨0, _⟩ => rfl | ⟨1, _⟩ => rfl)
  have e2 : ∀ k : Fin 128, idx_main_v3 (ridx_main_v4 (ix2 n j) k) = ix2 j k := fun k =>
    funext fun a => Fin.ext (by match a with | ⟨0, _⟩ => rfl | ⟨1, _⟩ => rfl)
  have e3 : idx_main_v5 (idx_main_v6 (ix2 n j)) = ix1 j :=
    funext fun a => Fin.ext (by match a with | ⟨0, _⟩ => rfl)
  simp only [e1, e2, e3]
  rfl

/-- The activation at `(n, j)`: the reference spells the logistic function as `1 / (1 + e^(-a))` with the float one. -/
theorem act_at (n : Fin 2000000) (j : Fin 64) :
    val_main_v8 (F := Ideal) x1 x4 x5 (ix2 n j) = silu (preact (fun k => x1 (ix2 n k)) x4 x5 j) := by
  rw [val_main_v8_apply, val_main_call0_v5_apply, val_main_call0_v4_apply, val_main_call0_cst_0_apply,
    val_main_call0_v3_apply, val_main_call0_v2_apply, val_main_call0_cst_apply, val_main_call0_v1_apply,
    val_main_call0_v0_apply, preact_at]
  show _ * Ideal.div (Ideal.ofBits .f32 0x3F800000#32) (Ideal.ofBits .f32 0x3F800000#32 + Ideal.exp (-_)) = _
  rw [Ideal.ofBits_one_f32]
  rfl

/-- The energy of atom `n`: the second layer, its bias and the rescaling. -/
theorem energy_at (n : Fin 2000000) :
    val_main_v17 (F := Ideal) x1 x4 x5 x6 x7 (ix2 n (0 : Fin 1)) = atomEnergy x1 x4 x5 x6 x7 n := by
  rw [val_main_v17_apply, val_main_v15_apply, val_main_v13_apply, val_main_v10_apply, val_main_v12_apply,
    val_main_v11_apply, val_main_v14_apply, val_main_cst_apply, val_main_v16_apply, val_main_cst_0_apply]
  simp only [val_main_v9_apply]
  have e1 : ∀ k : Fin 64, lidx_main_v10 (ix2 n (0 : Fin 1)) k = ix2 n k := fun k =>
    funext fun a => Fin.ext (by match a with | ⟨0, _⟩ => rfl | ⟨1, _⟩ => rfl)
  have e2 : ∀ k : Fin 64, idx_main_v9 (ridx_main_v10 (ix2 n (0 : Fin 1)) k) = ix2 (0 : Fin 1) k := fun k =>
    funext fun a => Fin.ext (by match a with | ⟨0, _⟩ => rfl | ⟨1, _⟩ => rfl)
  have e3 : idx_main_v11 (idx_main_v12 (ix2 n (0 : Fin 1))) = ix1 (0 : Fin 1) :=
    funext fun a => Fin.ext (by match a with | ⟨0, _⟩ => rfl)
  simp only [e1, e2, e3, act_at]
  rfl

/-- What atom `n` contributes: the energy where the label is positive, the float zero elsewhere. -/
theorem kept_at (n : Fin 2000000) :
    val_main_v18 (F := Ideal) x0 x1 x4 x5 x6 x7 (ix2 n (0 : Fin 1)) = kept x0 x1 x4 x5 x6 x7 n := by
  rw [val_main_v18_apply, val_main_v2_apply, val_main_v1_apply, val_main_v0_apply, val_main_c_apply,
    val_main_call1_v0_apply, val_main_cst_1_apply, energy_at]
  have e : idx_main_v2 (ix2 n (0 : Fin 1)) = ix1 n :=
    funext fun a => Fin.ext (by match a with | ⟨0, _⟩ => rfl)
  rw [e]
  rfl

/-- THE REFERENCE'S RESULT IS THE READ-OUT: the scatter into `[32768, 1]` with a window on the unit axis, read at
    `(g, 0)`, sums the contributions of the atoms whose graph index is `g`. -/
theorem result_eq :
    val_main_v21 (F := Ideal) x0 x1 x3 x4 x5 x6 x7 = readout x0 x1 x3 x4 x5 x6 x7 := by
  funext i
  obtain ⟨g, u, rfl⟩ : ∃ (g : Fin 32768) (u : Fin 1), i = ix2 g u := ⟨i 0, i 1, eq_ix2 i⟩
  obtain rfl : u = 0 := Subsingleton.elim _ _
  unfold val_main_v21
  rw [Cert.Gcn.rowScatterAdd_host scatter_S32768x1_S2000000x1_S2000000x1_1_0_0_1
    Facts₀.scatter_S32768x1_S2000000x1_S2000000x1_1_0_0_1_wf rfl, val_main_v19_apply, val_main_cst_2_apply]
  show _ = Ideal.ofBits .f32 0x00000000#32
    + ∑ n : Fin 2000000, if (x3 (ix1 n)).toInt = (g.val : ℤ) then kept x0 x1 x4 x5 x6 x7 n else 0
  refine congrArg (fun s : EReal => Ideal.ofBits .f32 0x00000000#32 + s) (Finset.sum_congr rfl fun e _ => ?_)
  have e20 : idx_main_v20 (ix2 e (0 : Fin 1)) = ix1 e :=
    funext fun a => Fin.ext (by match a with | ⟨0, _⟩ => rfl)
  rw [val_main_v20_apply, kept_at, e20]

end Cert.AtomReadout.Reference

end
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.BodyRow.lean ====
/-
  What the kernel body computes for one row of its block.

  The body loads a block of 8000 feature rows and the whole weight and bias arrays, and stores one number per row.
  Read at row `p` of the block, the stored number is the energy of that row: the matrix product with the transposed
  first-layer weights into a zero accumulator is the plain sum `Σ_k x[p, k] · W1[j, k]` (the change of float format
  before it is the identity on the extended reals); the bias reaches every row through a unit leading axis; the
  activation is `a · σ(a)`; the second layer is a sum along the lanes of the products with the weight row; the two
  casts of the weight row through a flat vector cancel; the lane sum becomes a column through a unit trailing axis; and
  the scalar bias and the two shared constants are splatted over the column.
-/
import proofs.«106383_j29317446763346_1_alg».proof.Proof.Gen.KernelIdeal.Skeleton
import proofs.«106383_j29317446763346_1_alg».proof.Proof.Spec
import proofs.«106383_j29317446763346_1_alg».proof.Proof.LibKeepdims
import proofs.«106383_j29317446763346_1_alg».proof.Proof.LibPlainMatmul
import Idealize.ShloMosaic.Lib.ValueLayout
import Idealize.ShloMosaic.Lib.ValueIdx

noncomputable section

namespace Cert.AtomReadout.Body

open Idealize.ShloMosaic Idealize.ShloMosaic.ValueIdx
open Cert.KernelIdeal Cert.KernelIdeal.Gen

/-- The kernel's product is the plain one: rows of the left operand by columns of the right, no batch axis. -/
theorem dot_plain : dot_S8000x128_S128x64_S8000x64_1_0_0_1_n_n = DotDims.plain 8000 128 64 := rfl

variable (x0 : FVec Ideal S8000x128 .f32) (x1 : FVec Ideal S64x128 .f32) (x2 : FVec Ideal S64 .f32)
  (x3 : FVec Ideal S1x64 .f32) (x4 : FVec Ideal S1 .f32)

/-- The block of first-layer pre-activations, as the body spells it. -/
def hidden : FVec Ideal S8000x64 .f32 :=
  addf (matmul dot_S8000x128_S128x64_S8000x64_1_0_0_1_n_n none (truncf .bf16 x0 bitsLt_bf16_f32)
      (transpose S128x64 [1, 0] (truncf .bf16 x1 bitsLt_bf16_f32) transposes_S64x128_p1_0_S128x64)
      (constant S8000x64 .f32 0x00000000#32))
    (broadcastTo S8000x64 (shapeCast S1x64 x2 shapeCasts_S64_S1x64) broadcasts_S1x64_S8000x64)

/-- The first layer at row `p`, unit `j`: the product with the transposed weights accumulated into zeros, plus the bias
    row repeated over the block's rows. -/
theorem hidden_at (p : Fin 8000) (j : Fin 64) :
    hidden x0 x1 x2 (ix2 p j) = preact (fun k => x0 (ix2 p k)) x1 x2 j := by
  unfold hidden
  rw [addf_apply, dot_plain, Cert.LibPlainMatmul.matmul_plain_zero_apply, broadcastTo_1b_ab_apply, shapeCast_a_1a_apply]
  refine congrArg (fun s : EReal => s + x2 (ix1 j)) (Finset.sum_congr rfl fun k _ => ?_)
  rw [truncf_apply, transpose_ix2_apply, truncf_apply]

/-- The block of activated units, each already multiplied by its second-layer weight, as the body spells it. -/
def weighted : FVec Ideal S8000x64 .f32 :=
  mulf (mulf (hidden x0 x1 x2) (logistic (hidden x0 x1 x2)))
    (broadcastTo S8000x64 (shapeCast S1x64 (shapeCast S64 x3 shapeCasts_S1x64_S64) shapeCasts_S64_S1x64) broadcasts_S1x64_S8000x64)

/-- At row `p`, unit `j`: the activation `a · σ(a)` times the weight `W2[0, j]` (the weight row cast to a flat vector and
    back is itself). -/
theorem weighted_at (p : Fin 8000) (j : Fin 64) :
    weighted x0 x1 x2 x3 (ix2 p j) = silu (preact (fun k => x0 (ix2 p k)) x1 x2 j) * x3 (ix2 (0 : Fin 1) j) := by
  unfold weighted
  rw [mulf_apply, mulf_apply, broadcastTo_1b_ab_apply, shapeCast_a_1a_apply, shapeCast_1a_a_apply]
  show hidden x0 x1 x2 (ix2 p j) * Ideal.logistic (hidden x0 x1 x2 (ix2 p j)) * _ = _
  rw [hidden_at]
  rfl

/-- The sum along the lanes at row `p`: the second layer before its bias. -/
theorem laneSum_at (p : Fin 8000) :
    multiReduction (F := Ideal) .add [1] S8000 (weighted x0 x1 x2 x3) 0x00000000#32 reduces_S8000x64_S8000 (.inl rfl) rfl (ix1 p)
      = ∑ j : Fin 64, silu (preact (fun k => x0 (ix2 p k)) x1 x2 j) * x3 (ix2 (0 : Fin 1) j) :=
  (multiReduction_add_row (weighted x0 x1 x2 x3) 0x00000000#32 reduces_S8000x64_S8000 (.inl rfl) rfl p).trans
    (Finset.sum_congr rfl fun j _ => weighted_at x0 x1 x2 x3 p j)

/-- The scalar the body extracts from the one-element bias array is that element. -/
theorem bias2_eq : extractAt ![0] x4 inpos_S1_p0 = x4 (ix1 (0 : Fin 1)) :=
  congrArg x4 (funext fun a => Fin.ext (by match a with | ⟨0, _⟩ => rfl))

/-- THE STORED VALUE AT ROW `p` is the energy of the block's row `p`. -/
theorem pay_at (p : Fin 8000) (u : Fin 1) :
    k0_pay1 (F := Ideal) x0 x1 x2 x3 x4 (ix2 p u) = rowEnergy (fun k => x0 (ix2 p k)) x1 x2 x3 x4 :=
  calc k0_pay1 (F := Ideal) x0 x1 x2 x3 x4 (ix2 p u)
      = (shapeCast S8000x1 (multiReduction (F := Ideal) .add [1] S8000 (weighted x0 x1 x2 x3) 0x00000000#32
            reduces_S8000x64_S8000 (.inl rfl) rfl) shapeCasts_S8000_S8000x1 (ix2 p u)
          + extractAt ![0] x4 inpos_S1_p0) * Ideal.ofBits .f32 0x4059999A#32 + Ideal.ofBits .f32 0xBF99999A#32 := rfl
    _ = (multiReduction (F := Ideal) .add [1] S8000 (weighted x0 x1 x2 x3) 0x00000000#32
            reduces_S8000x64_S8000 (.inl rfl) rfl (ix1 p)
          + extractAt ![0] x4 inpos_S1_p0) * Ideal.ofBits .f32 0x4059999A#32 + Ideal.ofBits .f32 0xBF99999A#32 :=
        congrArg (fun s : EReal => (s + extractAt ![0] x4 inpos_S1_p0) * Ideal.ofBits .f32 0x4059999A#32 + Ideal.ofBits .f32 0xBF99999A#32)
          (shapeCast_a_a1_apply _ shapeCasts_S8000_S8000x1 p u)
    _ = ((∑ j : Fin 64, silu (preact (fun k => x0 (ix2 p k)) x1 x2 j) * x3 (ix2 (0 : Fin 1) j))
          + extractAt ![0] x4 inpos_S1_p0) * Ideal.ofBits .f32 0x4059999A#32 + Ideal.ofBits .f32 0xBF99999A#32 :=
        congrArg (fun s : EReal => (s + extractAt ![0] x4 inpos_S1_p0) * Ideal.ofBits .f32 0x4059999A#32 + Ideal.ofBits .f32 0xBF99999A#32)
          (laneSum_at x0 x1 x2 x3 p)
    _ = rowEnergy (fun k => x0 (ix2 p k)) x1 x2 x3 x4 :=
        congrArg (fun b : EReal => ((∑ j : Fin 64, silu (preact (fun k => x0 (ix2 p k)) x1 x2 j) * x3 (ix2 (0 : Fin 1) j)) + b)
            * Ideal.ofBits .f32 0x4059999A#32 + Ideal.ofBits .f32 0xBF99999A#32) (bias2_eq x4)

end Cert.AtomReadout.Body

end
-- ==== Proof.EnergyColumn.lean ====
/-
  The array the region leaves: one energy per atom, as a column.

  The grid has 250 points; point `t` loads rows `8000·t … 8000·t + 7999` of the feature array and the whole weight and
  bias arrays, and writes back rows `8000·t … 8000·t + 7999` of the result column. What it writes back at row `p` of its
  block is the energy of the block's row `p` — the feature array's row `8000·t + p`. So each written-back block is a
  block of ONE function of the argument arrays, the column of the atoms' energies; and the blocks tile the column (row
  `r` lies in the block of point `r / 8000`), so the array ends holding that column.
-/
import proofs.«106383_j29317446763346_1_alg».proof.Proof.Gen.KernelIdeal.Frame
import proofs.«106383_j29317446763346_1_alg».proof.Proof.BodyRow
import Idealize.ShloMosaic.Lib.Pipeline.Value

set_option maxRecDepth 16384

noncomputable section

namespace Cert.AtomReadout.Region

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The energies of the row's change of name: equal rows and equal weights give equal energies. -/
theorem rowEnergy_congr {r r' : Fin 128 → EReal} {a a' : FVec Ideal ⟨2, ![64, 128]⟩ .f32} {b b' : FVec Ideal ⟨1, ![64]⟩ .f32}
    {w w' : FVec Ideal ⟨2, ![1, 64]⟩ .f32} {d d' : FVec Ideal ⟨1, ![1]⟩ .f32}
    (h0 : r = r') (h1 : a = a') (h2 : b = b') (h3 : w = w') (h4 : d = d') :
    rowEnergy r a b w d = rowEnergy r' a' b' w' d' := by
  subst h0 h1 h2 h3 h4; rfl

/-- THE COLUMN OF ENERGIES: entry `(n, 0)` is atom `n`'s energy, from the argument arrays as the region finds them. -/
def energyColumn (c : Dev nD) : S2000000x1.Idx → Elt Ideal .f32 := fun i =>
  atomEnergy (V m c main_arg1) (V m c main_arg4) (V m c main_arg5) (V m c main_arg6) (V m c main_arg7) (i 0)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 250 points: the feature window moves with the result window along the
    rows, point `t` is at block `t`, and every other block index is zero. -/
theorem idx_facts : ∀ t : Fin cfg0.N, win0_0.index t (0 : Fin 2) = t.val
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- WHAT POINT `t` WRITES BACK is block `t` of the column of energies. -/
theorem flushed_eq (c : Dev nD) (t : Fin cfg0.N) :
    (dats m 0 c).flushed 5 t = ((cfg0.win 5).blk t).view.read (Elt Ideal) (energyColumn m c) := by
  show (cfg0.win 5).cut (grid0.coords t) ((dats m 0 c).after 5 t) = _
  rw [after0_5]
  unfold out0_5
  rw [View.canon_unit_zero hz2]
  simp only [View.ld_unit_zero (S := S8000x128) hz2, View.ld_unit_zero (S := S64x128) hz2, View.ld_unit_zero (S := S64) hz1,
    View.ld_unit_zero (S := S1x64) hz2, View.ld_unit_zero (S := S1) hz1]
  obtain ⟨e00, e01, e10, e11, e20, e30, e31, e40, e50, e51⟩ := idx_facts t
  funext j
  obtain ⟨p, u, rfl⟩ : ∃ (p : Fin 8000) (u : Fin 1), j = ix2 p u := ⟨j 0, j 1, eq_ix2 j⟩
  refine (Cert.AtomReadout.Body.pay_at (iblk m c 0 t) (iblk m c 1 t) (iblk m c 2 t) (iblk m c 3 t) (iblk m c 4 t) p u).trans ?_
  show rowEnergy _ _ _ _ _ = rowEnergy (fun k => V m c main_arg1 (ix2 ((((cfg0.win 5).blk t).view.emb (ix2 p u)) 0) k))
    (V m c main_arg4) (V m c main_arg5) (V m c main_arg6) (V m c main_arg7)
  refine rowEnergy_congr ?_ ?_ ?_ ?_ ?_
  · funext k
    show V m c main_arg1 (((cfg0.win 0).blk t).view.emb (ix2 p k)) = _
    refine congrArg (V m c main_arg1) (funext fun a => Fin.ext ?_)
    match a with
    | ⟨0, _⟩ =>
      show win0_0.index t (0 : Fin 2) * 8000 + 1 * p.val = win0_5.index t (0 : Fin 2) * 8000 + 1 * p.val
      omega
    | ⟨1, _⟩ =>
      show win0_0.index t (1 : Fin 2) * 128 + 1 * k.val = k.val
      omega
  · funext y
    show V m c main_arg4 (((cfg0.win 1).blk t).view.emb y) = _
    refine congrArg (V m c main_arg4) (funext fun a => Fin.ext ?_)
    match a with
    | ⟨0, _⟩ => show win0_1.index t (0 : Fin 2) * 64 + 1 * (y 0).val = (y 0).val; omega
    | ⟨1, _⟩ => show win0_1.index t (1 : Fin 2) * 128 + 1 * (y 1).val = (y 1).val; omega
  · funext y
    show V m c main_arg5 (((cfg0.win 2).blk t).view.emb y) = _
    refine congrArg (V m c main_arg5) (funext fun a => Fin.ext ?_)
    match a with
    | ⟨0, _⟩ => show win0_2.index t (0 : Fin 1) * 64 + 1 * (y 0).val = (y 0).val; omega
  · funext y
    show V m c main_arg6 (((cfg0.win 3).blk t).view.emb y) = _
    refine congrArg (V m c main_arg6) (funext fun a => Fin.ext ?_)
    match a with
    | ⟨0, _⟩ => show win0_3.index t (0 : Fin 2) * 1 + 1 * (y 0).val = (y 0).val; omega
    | ⟨1, _⟩ => show win0_3.index t (1 : Fin 2) * 64 + 1 * (y 1).val = (y 1).val; omega
  · funext y
    show V m c main_arg7 (((cfg0.win 4).blk t).view.emb y) = _
    refine congrArg (V m c main_arg7) (funext fun a => Fin.ext ?_)
    match a with
    | ⟨0, _⟩ => show win0_4.index t (0 : Fin 1) * 1 + 1 * (y 0).val = (y 0).val; omega

/-- An index of the column is in point `t`'s block iff each coordinate is in the block's range on its axis. -/
theorem mem_blk (t : Fin cfg0.N) (i : S2000000x1.Idx) :
    i ∈ ((cfg0.win 5).blk t).view.set ↔ ∀ a : Fin 2, win0_5.index t a * S8000x1.size a ≤ (i a).val
      ∧ (i a).val < win0_5.index t a * S8000x1.size a + S8000x1.size a := by
  show i ∈ ((View.whole main_v0).slice (win0_5.rect t)).set ↔ _
  rw [View.set_slice_whole, Rect.mem_set_unit]
  exact Iff.rfl

/-- THE BLOCKS TILE THE COLUMN: row `r` is in the block of point `r / 8000`. -/
theorem cover (i : S2000000x1.Idx) :
    ∃ t : Fin cfg0.N, (cfg0.win 5).flush t = true ∧ i ∈ ((cfg0.win 5).blk t).view.set := by
  have hi0 : (i 0).val < 2000000 := (i 0).isLt
  have hi1 : (i 1).val < 1 := (i 1).isLt
  have hN : grid0.N = 250 := N_0
  have ht : (i 0).val / 8000 < grid0.N := by rw [hN]; omega
  obtain ⟨-, -, -, -, -, -, -, -, e50, e51⟩ := idx_facts ⟨(i 0).val / 8000, ht⟩
  refine ⟨⟨(i 0).val / 8000, ht⟩, flush0_5 _, ?_⟩
  rw [mem_blk]
  intro a
  match a with
  | ⟨0, _⟩ =>
    show win0_5.index ⟨(i 0).val / 8000, ht⟩ (0 : Fin 2) * 8000 ≤ (i 0).val
      ∧ (i 0).val < win0_5.index ⟨(i 0).val / 8000, ht⟩ (0 : Fin 2) * 8000 + 8000
    rw [e50]
    show (i 0).val / 8000 * 8000 ≤ (i 0).val ∧ (i 0).val < (i 0).val / 8000 * 8000 + 8000
    omega
  | ⟨1, _⟩ =>
    show win0_5.index ⟨(i 0).val / 8000, ht⟩ (1 : Fin 2) * 1 ≤ (i 1).val
      ∧ (i 1).val < win0_5.index ⟨(i 0).val / 8000, ht⟩ (1 : Fin 2) * 1 + 1
    omega

/-- THE ARRAY AFTER THE REGION is the column of energies. -/
theorem final (c : Dev nD) : (dats m 0 c).arrAt 5 cfg0.N = energyColumn m c :=
  (dats m 0 c).arrAt_eq_of_cover 5 (energyColumn m c) (fun t _ => flushed_eq m c t) (cover)

end Cert.AtomReadout.Region

end
-- ==== Proof.LibLayoutReads.lean ====
/-
  Small reads at an index, for the layout operations around a gather and a scatter, and the two facts about
  32-bit index words that the aggregation needs.

  * A flat array broadcast to a column, a scalar broadcast to any shape, a column repeated along the features, a
    bias `[F]` repeated for every node (through `[1, F]`), and the reshapes `[F] → [1, F]`, `[N] → [N, 1]`:
    each read at an index is the operand at the evident index.
  * `x[idx]` wraps a negative index by the table's length once before the gather clamps it. An index word whose
    signed value is a row `c` of the table is read back as `c`: it is not negative, so it is not wrapped, and it is
    inside the table, so the clamp leaves it. The word of a small natural number `i` has signed value `i`.
-/
import Idealize.ShloMosaic.Lib.Pipeline.Value
import Idealize.ShloMosaic.Lib.ValueIdx
import proofs.«106383_j29317446763346_1_alg».proof.Proof.LibRowIndexing

noncomputable section

namespace Cert.Gcn

open Idealize.ShloMosaic Idealize.ShloMosaic.ValueIdx

section Layout
variable {α : Type}

/-- A scalar broadcast holds the scalar everywhere. -/
theorem bcastScalar_apply {t : Shape} (h : (⟨0, ![]⟩ : Shape).BroadcastsInDim t ![]) (x : (⟨0, ![]⟩ : Shape).Idx → α)
    (j : t.Idx) : broadcastInDim t ![] h x j = x ix0 :=
  broadcastInDim_apply _ h x j ix0 (fun a => a.elim0)

/-- A flat array as a column: entry `e` of the column is entry `e` of the array. -/
theorem bcastCol_apply {E : ℕ} (hE : E ≠ 1) (h : (⟨1, ![E]⟩ : Shape).BroadcastsInDim ⟨2, ![E, 1]⟩ ![0])
    (x : (⟨1, ![E]⟩ : Shape).Idx → α) (e : Fin E) :
    broadcastInDim ⟨2, ![E, 1]⟩ ![0] h x (ix2 e (0 : Fin 1)) = x (ix1 e) :=
  broadcastInDim_apply _ h x _ (ix1 e) (fun a => match a with
    | ⟨0, _⟩ => by show e.val = if E = 1 then 0 else e.val; rw [if_neg hE])

/-- A column repeated along the features: entry `(e, g)` is the column's entry `e`. -/
theorem bcastAlong_apply {E F : ℕ} (hE : E ≠ 1) (h : (⟨2, ![E, 1]⟩ : Shape).BroadcastsInDim ⟨2, ![E, F]⟩ ![0, 1])
    (x : (⟨2, ![E, 1]⟩ : Shape).Idx → α) (e : Fin E) (g : Fin F) :
    broadcastInDim ⟨2, ![E, F]⟩ ![0, 1] h x (ix2 e g) = x (ix2 e (0 : Fin 1)) :=
  broadcastInDim_apply _ h x _ (ix2 e (0 : Fin 1)) (fun a => match a with
    | ⟨0, _⟩ => by show e.val = if E = 1 then 0 else e.val; rw [if_neg hE]
    | ⟨1, _⟩ => by show 0 = if (1 : ℕ) = 1 then 0 else g.val; rw [if_pos rfl])

/-- A bias `[F]` as a row `[1, F]` repeated for every node: entry `(c, g)` is `b g`. -/
theorem bcastBias_apply {N F : ℕ} (hF : F ≠ 1) (h1 : (⟨1, ![F]⟩ : Shape).BroadcastsInDim ⟨2, ![1, F]⟩ ![1])
    (h2 : (⟨2, ![1, F]⟩ : Shape).BroadcastsInDim ⟨2, ![N, F]⟩ ![0, 1]) (b : (⟨1, ![F]⟩ : Shape).Idx → α) (c : Fin N) (g : Fin F) :
    broadcastInDim ⟨2, ![N, F]⟩ ![0, 1] h2 (broadcastInDim ⟨2, ![1, F]⟩ ![1] h1 b) (ix2 c g) = b (ix1 g) := by
  rw [broadcastInDim_apply _ h2 _ _ (ix2 (0 : Fin 1) g) (fun a => match a with
    | ⟨0, _⟩ => by show 0 = if (1 : ℕ) = 1 then 0 else c.val; rw [if_pos rfl]
    | ⟨1, _⟩ => by show g.val = if F = 1 then 0 else g.val; rw [if_neg hF])]
  exact broadcastInDim_apply _ h1 b _ (ix1 g) (fun a => match a with
    | ⟨0, _⟩ => by show g.val = if F = 1 then 0 else g.val; rw [if_neg hF])

/-- The reshape `[F] → [1, F]`. -/
theorem reshapeRow_apply {F : ℕ} (h : (⟨1, ![F]⟩ : Shape).ShapeCasts ⟨2, ![1, F]⟩) (b : (⟨1, ![F]⟩ : Shape).Idx → α) (g : Fin F) :
    shapeCast ⟨2, ![1, F]⟩ b h (ix2 (0 : Fin 1) g) = b (ix1 g) :=
  shapeCast_apply b h _ (ix1 g) (by
    rw [Shape.rowMajor_val_two, Shape.rowMajor_val_one]; show g.val = 0 * F + g.val; omega)

/-- The reshape `[N] → [N, 1]`. -/
theorem reshapeCol_apply {N : ℕ} (h : (⟨1, ![N]⟩ : Shape).ShapeCasts ⟨2, ![N, 1]⟩) (v : (⟨1, ![N]⟩ : Shape).Idx → α) (r : Fin N) :
    shapeCast ⟨2, ![N, 1]⟩ v h (ix2 r (0 : Fin 1)) = v (ix1 r) :=
  shapeCast_apply v h _ (ix1 r) (by
    rw [Shape.rowMajor_val_two, Shape.rowMajor_val_one]; show r.val = r.val * 1 + 0; omega)

end Layout

/-! ## Index words -/

/-- How `x[idx]` prepares an index word for a table of length `n`: a negative one is wrapped by `n` once. -/
def wrapIdx (n v : BitVec 32) : BitVec 32 := Scalar.select (IntOp.cmpi .slt v 0#32) (IntOp.addi v n) v

/-- A word that is not negative is not wrapped. -/
theorem wrapIdx_of_nonneg (n v : BitVec 32) (h : 0 ≤ v.toInt) : wrapIdx n v = v := by
  unfold wrapIdx IntOp.cmpi
  have hs : v.slt 0#32 = false := by
    rw [BitVec.slt]; simp only [BitVec.toInt_zero]; exact decide_eq_false (by omega)
  simp only [hs, BitVec.ofBool_false]
  exact if_neg (by decide)

/-- A word whose signed value is a row `c` of the table is read back as `c`. -/
theorem clampRow_wrapIdx_of_toInt {N : ℕ} (hN : 0 < N) (n v : BitVec 32) (c : Fin N) (h : v.toInt = (c.val : ℤ)) :
    clampRow hN (wrapIdx n v) = c := by
  rw [wrapIdx_of_nonneg n v (by omega)]
  refine Fin.ext ?_
  show min v.toInt.toNat (N - 1) = c.val
  have := c.isLt
  omega

/-- The word of a natural number below `2 ^ 31` has that number as its signed value. -/
theorem toInt_ofNat_small (i : ℕ) (h : i < 2147483648) : (BitVec.ofNat 32 i).toInt = (i : ℤ) := by
  rw [BitVec.toInt_eq_toNat_cond, BitVec.toNat_ofNat]
  have hm : i % 2 ^ 32 = i := Nat.mod_eq_of_lt (by omega)
  rw [hm]
  split <;> omega

/-- So the word of a row `i` is read back as `i`. -/
theorem clampRow_wrapIdx_ofNat {N : ℕ} (hN : 0 < N) (hN' : N ≤ 2147483648) (n : BitVec 32) (i : Fin N) :
    clampRow hN (wrapIdx n (BitVec.ofNat 32 i.val)) = i :=
  clampRow_wrapIdx_of_toInt hN n _ i (toInt_ofNat_small i.val (by have := i.isLt; omega))

end Cert.Gcn

end
-- ==== Proof.GraphSum.lean ====
/-
  The host operations after the region: from the column of energies to the per-graph sums.

  After the region the program flattens the column `[2000000, 1]` to a vector, replaces by the float zero the entries
  of the atoms whose label is not positive, adds each entry into the slot of its atom's graph index (a scatter with an
  `add` body into a vector of 32768 float zeros, the indices passed as a column), and reshapes the 32768 sums to a column.
  Read at `(g, 0)` this is the float zero plus the sum, over the atoms whose graph index read signed is `g`, of the
  atom's entry or zero — the specification's read-out once the column is the column of energies.
-/
import proofs.«106383_j29317446763346_1_alg».proof.Proof.Gen.KernelIdeal.Frame
import proofs.«106383_j29317446763346_1_alg».proof.Proof.EnergyColumn
import proofs.«106383_j29317446763346_1_alg».proof.Proof.LibRowIndexing
import proofs.«106383_j29317446763346_1_alg».proof.Proof.LibLayoutReads
import Idealize.ShloMosaic.Lib.StableHlo.Run

set_option maxRecDepth 16384

noncomputable section

namespace Cert.AtomReadout.Tail

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen

/-- A column `[a, 1]` flattened to `[a]` reads, at `i`, the column's entry of row `i`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- THE TAIL as one function of the label array, the graph-index array and the region's column. -/
def graphSum (z : IVec S2000000 32) (batch : IVec S2000000 32) (col : FVec Ideal S2000000x1 .f32) : FVec Ideal S32768x1 .f32 :=
  shapeCast S32768x1
    (Host.scatterAdd (F := Ideal) scatter_S32768_S2000000x1_S2000000_n_0_0_1
      (broadcastInDim S32768 ![] bcast_S_S32768 (constant (F := Ideal) S_ .f32 0x00000000#32))
      (broadcastInDim S2000000x1 ![0] bcast_S2000000_S2000000x1_0 batch)
      (select (cmpi .sgt z (broadcastInDim S2000000 ![] bcast_S_S2000000 (constantI S_ 32 0#32)))
        (shapeCast S2000000 col shapeCasts_S2000000x1_S2000000)
        (broadcastInDim S2000000 ![] bcast_S_S2000000 (constant (F := Ideal) S_ .f32 0x00000000#32))))
    shapeCasts_S32768_S32768x1

/-- The tail at `(g, 0)`: the float zero plus the entries, or zeros, of the atoms whose graph index is `g`. -/
theorem graphSum_apply (z : IVec S2000000 32) (batch : IVec S2000000 32) (col : FVec Ideal S2000000x1 .f32) (g : Fin 32768) :
    graphSum z batch col (ix2 g (0 : Fin 1))
      = Ideal.ofBits .f32 0x00000000#32
        + ∑ n : Fin 2000000, if (batch (ix1 n)).toInt = (g.val : ℤ)
            then Scalar.select (IntOp.cmpi .sgt (z (ix1 n)) 0#32) (col (ix2 n (0 : Fin 1))) (Ideal.ofBits .f32 0x00000000#32) else 0 := by
  unfold graphSum
  rw [Cert.Gcn.reshapeCol_apply, Cert.Gcn.vecScatterAdd_host scatter_S32768_S2000000x1_S2000000_n_0_0_1
    Facts₀.scatter_S32768_S2000000x1_S2000000_n_0_0_1_wf rfl, Cert.Gcn.bcastScalar_apply]
  refine congrArg (fun s : EReal => Ideal.ofBits .f32 0x00000000#32 + s) (Finset.sum_congr rfl fun n _ => ?_)
  rw [Cert.Gcn.bcastCol_apply (by decide), select_apply, shapeCast_a1_a_apply, Cert.Gcn.bcastScalar_apply]
  show (if (batch (ix1 n)).toInt = (g.val : ℤ) then
      Scalar.select (IntOp.cmpi .sgt (z (ix1 n)) (broadcastInDim S2000000 ![] bcast_S_S2000000 (constantI S_ 32 0#32) (ix1 n)))
        (col (ix2 n (0 : Fin 1))) (Ideal.ofBits .f32 0x00000000#32) else 0) = _
  rw [Cert.Gcn.bcastScalar_apply]
  rfl

variable (m : (ℓ : Loc nD τ sig) → Buf (Elt Ideal) ℓ)

/-- The program's result after the tail is `graphSum` of the two integer arguments as launched and the region's array. -/
theorem tail_raw (c : Dev nD) :
    Pipeline.afterTail₀ cfgs (dats m) 0 (V0 m) [hostOps1, hostOps1_1, hostOps1_2] c main_v8
      = graphSum (m ((c : Thread nD τ).loc main_arg0)) (m ((c : Thread nD τ).loc main_arg3)) ((dats m 0 c).arrAt 5 cfg0.N) := by
  unfold Pipeline.afterTail₀
  simp only [hostOps1, hostOps1_1, hostOps1_2, List.flatten_cons, List.flatten_nil, List.append_nil, List.cons_append, List.nil_append]
  after_results
  rw [Pipeline.withArrays_of_ne _ c (V0 m c) _ main_arg0 (by exact (by decide : ∀ w, Pipeline.arrRef spec0 w ≠ main_arg0)),
    Pipeline.withArrays_of_ne _ c (V0 m c) _ main_arg3 (by exact (by decide : ∀ w, Pipeline.arrRef spec0 w ≠ main_arg3)),
    Pipeline.withArrays_arr spec0 launch0.win.arr_inj c _ _ 5]
  rfl

/-- THE KERNEL PROGRAM'S RESULT IS THE READ-OUT of the argument arrays. -/
theorem result_eq (c : Dev nD) :
    Pipeline.afterTail₀ cfgs (dats m) 0 (V0 m) [hostOps1, hostOps1_1, hostOps1_2] c main_v8
      = readout (m ((c : Thread nD τ).loc main_arg0)) (m ((c : Thread nD τ).loc main_arg1)) (m ((c : Thread nD τ).loc main_arg3))
          (m ((c : Thread nD τ).loc main_arg4)) (m ((c : Thread nD τ).loc main_arg5)) (m ((c : Thread nD τ).loc main_arg6))
          (m ((c : Thread nD τ).loc main_arg7)) := by
  rw [tail_raw, Cert.AtomReadout.Region.final]
  funext i
  obtain ⟨g, u, rfl⟩ : ∃ (g : Fin 32768) (u : Fin 1), i = ix2 g u := ⟨i 0, i 1, eq_ix2 i⟩
  obtain rfl : u = 0 := Subsingleton.elim _ _
  rw [graphSum_apply]
  rfl

end Cert.AtomReadout.Tail

end
-- ==== Proof.lean ====
/-
  The kernel program and its reference compute the same per-graph energies.

  Both programs take, for two million atoms, an integer label, a feature row of 128 numbers and a graph index, and the
  weights of a two-layer perceptron. Both compute each atom's energy — `Σ_j a_j σ(a_j) · W2[0, j] + b2[0]` with
  `a_j = Σ_k h[n, k] · W1[j, k] + b1[j]`, rescaled by two float constants the programs share word for word —, replace
  it by zero where the label is not positive, and add the atoms' numbers into the slots of their graphs.

  The kernel program computes the energies in a pipelined region of 250 points, 8000 atoms each (a matrix product
  into a zero accumulator, the logistic function as one operation, the second layer as a sum along the lanes), leaves
  them in a column, and does the masking and the accumulation on the host over the flattened column. The reference does
  everything on the host, in matrix form, spelling the logistic function as `1 / (1 + e^(-a))` and accumulating columns
  of width one. On the extended reals every operation is exact and a change of float format is the identity, so both
  results are ONE function of the argument arrays (`Cert.AtomReadout.readout`): the kernel side by reading the region's
  blocks as blocks of the column of energies and then the host tail at an index; the reference side by reading its
  operations at an index. No property of the inputs is used: the sums only need that addition on the extended reals is
  commutative and associative, and no term is moved across a product.

  The three frames are the programs' runs with the results forgotten, and no operation was rewritten on the way from the
  kernel program to its idealization, so that claim has nothing to state.
-/
import proofs.«106383_j29317446763346_1_alg».proof.Defs
import proofs.«106383_j29317446763346_1_alg».proof.Proof.Gen.Kernel
import proofs.«106383_j29317446763346_1_alg».proof.Proof.Gen.Kernel.Skeleton
import proofs.«106383_j29317446763346_1_alg».proof.Proof.Gen.Kernel.Launch
import proofs.«106383_j29317446763346_1_alg».proof.Proof.Gen.Kernel.Points
import proofs.«106383_j29317446763346_1_alg».proof.Proof.Gen.Kernel.Frame
import proofs.«106383_j29317446763346_1_alg».proof.Proof.Gen.KernelIdeal
import proofs.«106383_j29317446763346_1_alg».proof.Proof.Gen.KernelIdeal.Skeleton
import proofs.«106383_j29317446763346_1_alg».proof.Proof.Gen.KernelIdeal.Launch
import proofs.«106383_j29317446763346_1_alg».proof.Proof.Gen.KernelIdeal.Points
import proofs.«106383_j29317446763346_1_alg».proof.Proof.Gen.KernelIdeal.Frame
import proofs.«106383_j29317446763346_1_alg».proof.Proof.Gen.ReferenceIdeal
import proofs.«106383_j29317446763346_1_alg».proof.Proof.Gen.ReferenceIdeal.Run
import proofs.«106383_j29317446763346_1_alg».proof.Proof.Gen.ReferenceIdeal.Read
import proofs.«106383_j29317446763346_1_alg».proof.Proof.Gen.Pre_finite_inputs
import proofs.«106383_j29317446763346_1_alg».proof.Proof.ReferenceReadout
import proofs.«106383_j29317446763346_1_alg».proof.Proof.GraphSum
import Idealize.ShloMosaic.Adequacy
import Idealize.ShloMosaic.Init

noncomputable section

namespace Cert.Proof

open Idealize.ShloMosaic Idealize.ShloMosaic.TcCoe Idealize.SL.Sem

/-- The kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

section KernelRun

open Cert.KernelIdeal Cert.KernelIdeal.Gen

/-- The idealized kernel program's run, with its result named: the read-out of the argument arrays. The result is a
    buffer no window stages, so the run leaves it as the host tail computes it from the region's array; each argument is
    either a staged input, which the region leaves as it found it, or a buffer the tail does not write. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8)
        = Cert.AtomReadout.readout (m ((c.tc : Thread nD τ).loc main_arg0)) (m ((c.tc : Thread nD τ).loc main_arg1))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v8 (Pipeline.mem_restRefs_of main_v8 (by decide) (by decide))).trans (Cert.AtomReadout.Tail.result_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).1 2).trans (((dats m 0 c).arrAt_in 2 rfl _).trans ((A_eq m c 2).trans (V_main_arg5 m c))),
      ((h c).1 3).trans (((dats m 0 c).arrAt_in 3 rfl _).trans ((A_eq m c 3).trans (V_main_arg6 m c))),
      ((h c).1 4).trans (((dats m 0 c).arrAt_in 4 rfl _).trans ((A_eq m c 4).trans (V_main_arg7 m c)))⟩)
    (run_main m ρ)

end KernelRun

/-- From memories agreeing on the arguments both idealized programs end with the read-out of those arguments: the
    kernel program by its run above, the reference by its run and the reading of its operations at an index. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.AtomReadout.Reference.result_eq,
    (hagree c).1, (hagree c).2.1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
